-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S16384x256 : Shape := ⟨2, ![16384, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S8192x256 .f32) (main_arg1 : FVec F S16384x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S8192x1 : Shape := ⟨2, ![8192, 1]⟩
abbrev S16384 : Shape := ⟨1, ![16384]⟩
abbrev S1x16384 : Shape := ⟨2, ![1, 16384]⟩
abbrev S256x16384 : Shape := ⟨2, ![256, 16384]⟩
abbrev S8192x16384 : Shape := ⟨2, ![8192, 16384]⟩
abbrev S2048x256 : Shape := ⟨2, ![2048, 256]⟩
abbrev S256x512 : Shape := ⟨2, ![256, 512]⟩
abbrev S2048x1 : Shape := ⟨2, ![2048, 1]⟩
abbrev S1x512 : Shape := ⟨2, ![1, 512]⟩
abbrev S2048x512 : Shape := ⟨2, ![2048, 512]⟩

abbrev nBuf : Space → Nat
  | .hbm => 20
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S_, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S16384x256, .f32⟩
  | .hbm, ⟨10, _⟩ => ⟨S_, .f32⟩
  | .hbm, ⟨11, _⟩ => ⟨S16384, .f32⟩
  | .hbm, ⟨12, _⟩ => ⟨S1x16384, .f32⟩
  | .hbm, ⟨13, _⟩ => ⟨S8192x256, .bf16⟩
  | .hbm, ⟨14, _⟩ => ⟨S256x16384, .f32⟩
  | .hbm, ⟨15, _⟩ => ⟨S_, .f32⟩
  | .hbm, ⟨16, _⟩ => ⟨S256x16384, .f32⟩
  | .hbm, ⟨17, _⟩ => ⟨S256x16384, .f32⟩
  | .hbm, ⟨18, _⟩ => ⟨S256x16384, .bf16⟩
  | .hbm, ⟨19, _⟩ => ⟨S8192x16384, .f32⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S256x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S16384x256_S16384_d1 : S16384x256.ReducesTo [1] S16384
  bcast_S16384_S1x16384_1 : S16384.BroadcastsInDim S1x16384 (![1] : Fin 1 → Fin S1x16384.rank)
  bitsLt_bf16_f32 : FTy.bits .bf16 < FTy.bits .f32
  transposes_S16384x256_S256x16384_1_0 : S16384x256.Transposes [1, 0] S256x16384
  bcast_S_S256x16384 : S_.BroadcastsInDim S256x16384 (![] : Fin 0 → Fin S256x16384.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x16384.size a
  hwx0_1 : ∀ i : grid0.Coords, EltTy.bits .bf16 = 32 ∨ (Rect.block (s := S256x16384) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x16384.size a
  hwx0_4 : ∀ i : grid0.Coords, EltTy.bits .f32 = 32 ∨ (Rect.block (s := S8192x16384) S2048x512.size (cc0_transform_4 i) (hinb0_4 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S8192x1 : Shape := ⟨2, ![8192, 1]⟩
abbrev S16384 : Shape := ⟨1, ![16384]⟩
abbrev S256x16384 : Shape := ⟨2, ![256, 16384]⟩
abbrev S8192x16384 : Shape := ⟨2, ![8192, 16384]⟩
abbrev S1x16384 : Shape := ⟨2, ![1, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S_, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S16384x256, .f32⟩
  | .hbm, ⟨10, _⟩ => ⟨S_, .f32⟩
  | .hbm, ⟨11, _⟩ => ⟨S16384, .f32⟩
  | .hbm, ⟨12, _⟩ => ⟨S256x16384, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | .hbm, ⟨17, _⟩ => ⟨S8192x16384, .f32⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x16384, .f32⟩
  | .hbm, ⟨22, _⟩ => ⟨S_, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S8192x16384, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S16384x256_S16384_d1 : S16384x256.ReducesTo [1] S16384
  transposes_S16384x256_S256x16384_1_0 : S16384x256.Transposes [1, 0] S256x16384
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  dot_S8192x256_S256x16384_S8192x16384_1_0_0_1_n_n_wf : DotDims.WF S8192x256 S256x16384 S8192x16384 [1] [0] [0] [1] [] []

variable [Facts₀]

def dot_S8192x256_S256x16384_S8192x16384_1_0_0_1_n_n : DotDims S8192x256 S256x16384 S8192x16384 where
  lhsContracting := [1]
  rhsContracting := [0]
  lhsNonContracting := [0]
  rhsNonContracting := [1]
  lhsBatch := []
  rhsBatch := []
  wf := dot_S8192x256_S256x16384_S8192x16384_1_0_0_1_n_n_wf

class Facts : Prop extends Facts₀ where

variable [Facts]
-- ==== Proof.LibDistanceExpansion.lean ====
/-
  The expansion of a squared Euclidean distance, over the extended reals, for vectors of real entries.

  For real vectors a and b of one length,  |a - b|^2 = |a|^2 + |b|^2 - 2 <a, b>.  A program may fold the factor -2 into
  one operand of the inner product and add the two squared norms afterwards,

      (sum_k a_k (-2 b_k) + |a|^2) + |b|^2 ,

  or subtract twice the plain inner product from the sum of the norms,

      (|a|^2 + |b|^2) - 2 sum_k a_k b_k .

  Over the reals the two are one number, because a constant factor moves out of a finite sum.  Over the extended reals
  that move is not free (a sum may meet both infinities), so the law is stated for entries that are coerced reals: then
  every sum and product below is the coercion of the real one.  The squared norms are written with the leading zero a
  running sum starts from, as an accumulating program spells them.
-/
import Idealize.ShloMosaic.PureOps.Ideal

noncomputable section

open scoped BigOperators

namespace Cert.Lib.DistanceExpansion

open Idealize.ShloMosaic

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe {n : ℕ} (a b : Fin n → ℝ) :
    ∑ k, (a k : EReal) * (b k : EReal) = ((∑ k, a k * b k : ℝ) : EReal) := by
  rw [coe_sum]
  exact Finset.sum_congr rfl fun k _ => (EReal.coe_mul _ _).symm

/-- The two arrangements of the expanded squared distance between real vectors `a` and `b` agree over the extended
    reals: the inner product taken against `-2 b` with the norms added after it, and twice the plain inner product
    subtracted from the sum of the norms. -/
theorem folded_eq_subtracted {n : ℕ} (a b : Fin n → ℝ) :
    ((∑ k, (a k : EReal) * (((-2 : ℝ) : EReal) * (b k : EReal))) + ((0 : EReal) + ∑ k, (a k : EReal) * (a k : EReal)))
        + ((0 : EReal) + ∑ k, (b k : EReal) * (b k : EReal))
      = (((0 : EReal) + ∑ k, (a k : EReal) * (a k : EReal)) + ((0 : EReal) + ∑ k, (b k : EReal) * (b k : EReal)))
        - ((2 : ℝ) : EReal) * ∑ k, (a k : EReal) * (b k : EReal) := by
  have hfold : ∑ k, (a k : EReal) * (((-2 : ℝ) : EReal) * (b k : EReal)) = ((-2 * ∑ k, a k * b k : ℝ) : EReal) := by
    rw [Finset.mul_sum, coe_sum]
    refine Finset.sum_congr rfl fun k _ => ?_
    rw [← EReal.coe_mul, ← EReal.coe_mul]
    exact congrArg _ (by ring)
  rw [hfold, sum_mul_coe a a, sum_mul_coe b b, sum_mul_coe a b, zero_add, zero_add, ← EReal.coe_mul,
    ← EReal.coe_add, ← EReal.coe_add, ← EReal.coe_add, ← EReal.coe_sub]
  exact congrArg _ (by ring)

/-- The float word `0xC0000000` read exactly is `-2`. -/
theorem word_neg_two : Ideal.ofBits .f32 0xC0000000#32 = ((-2 : ℝ) : EReal) := by
  simp [Ideal.ofBits, Ideal.ieee, -EReal.coe_mul]
  norm_num

/-- The float word `0x40000000` read exactly is `2`. -/
theorem word_two : Ideal.ofBits .f32 0x40000000#32 = ((2 : ℝ) : EReal) := by
  simp [Ideal.ofBits, Ideal.ieee, -EReal.coe_mul]
  norm_num

end Cert.Lib.DistanceExpansion

end
-- ==== Proof.Distance.lean ====
/-
  What both programs compute, as functions of the two argument arrays: the negated Euclidean distance from every row of
  a feature array x (8192 rows of 256 numbers, each shifted by a small constant eps first) to every row of a prototype
  array p (16384 rows of 256 numbers).

  With  s_i = (x_i + eps)  the shifted row,  |s_i|^2  and  |p_j|^2  the rows' squared norms (each a running sum started
  at zero), entry (i, j) of the result is  - sqrt (max d_ij 0)  where d_ij is the expanded squared distance.  The kernel
  takes the inner product of s_i against  -2 p_j  and adds the two norms after it, and writes the final negation as
  0 - y; the reference subtracts twice the plain inner product from the sum of the norms and negates.  For arrays of real
  entries the two arrangements are the same extended real, entry by entry.
-/
import Idealize.ShloMosaic.Lib.ValueIdx
import Idealize.ShloMosaic.PureOps.Ideal.Laws
import proofs.«157016_j91087666413905_2_alg».proof.Proof.LibDistanceExpansion

noncomputable section

open scoped BigOperators

namespace Cert.Distance

open Idealize.ShloMosaic Idealize.ShloMosaic.ValueIdx

/-- The feature array's, the prototype array's and the result's index sets. -/
abbrev Feat : Shape := ⟨2, ![8192, 256]⟩
abbrev Proto : Shape := ⟨2, ![16384, 256]⟩
abbrev Out : Shape := ⟨2, ![8192, 16384]⟩

/-- The zero both programs start their sums from and clamp at, and the shift `eps`, as the float words they print. -/
abbrev zeroW : EReal := Ideal.ofBits .f32 0x00000000#32
abbrev epsW : EReal := Ideal.ofBits .f32 0x358637BD#32

/-- Entry `k` of feature row `i`, shifted by `eps`. -/
def shifted (x : Feat.Idx → EReal) (i : Fin 8192) (k : Fin 256) : EReal := x (ix2 i k) + epsW

/-- The squared norm of shifted feature row `i`, summed from zero. -/
def featNorm (x : Feat.Idx → EReal) (i : Fin 8192) : EReal := zeroW + ∑ k : Fin 256, shifted x i k * shifted x i k

/-- The squared norm of prototype row `j`, summed from zero. -/
def protoNorm (p : Proto.Idx → EReal) (j : Fin 16384) : EReal := zeroW + ∑ k : Fin 256, p (ix2 j k) * p (ix2 j k)

/-- The kernel's arrangement: the inner product against `-2 p_j`, the norms added after it, the negation as `0 - y`. -/
def foldedForm (x : Feat.Idx → EReal) (p : Proto.Idx → EReal) : Out.Idx → EReal := fun i =>
  zeroW - Ideal.sqrt (max (((∑ k : Fin 256, shifted x (i 0) k * (Ideal.ofBits .f32 0xC0000000#32 * p (ix2 (i 1) k)))
    + featNorm x (i 0)) + protoNorm p (i 1)) zeroW)

/-- The reference's arrangement: twice the plain inner product subtracted from the sum of the norms. -/
def subtractedForm (x : Feat.Idx → EReal) (p : Proto.Idx → EReal) : Out.Idx → EReal := fun i =>
  -(Ideal.sqrt (max ((featNorm x (i 0) + protoNorm p (i 1))
    - Ideal.ofBits .f32 0x40000000#32 * ∑ k : Fin 256, shifted x (i 0) k * p (ix2 (i 1) k)) zeroW))

/-- The shift is a real number: its float word is neither infinity. -/
theorem eps_real : ∃ r : ℝ, epsW = (r : EReal) :=
  ⟨_, (EReal.coe_toReal (by simp [Ideal.ofBits, Ideal.ieee, -EReal.coe_mul])
    (by simp [Ideal.ofBits, Ideal.ieee, -EReal.coe_mul])).symm⟩

/-- For arrays of real entries the two arrangements are one function: every shifted entry is again real, so the
    expansion law for real vectors applies to row `i` of the features and row `j` of the prototypes, and `0 - y = -y`. -/
theorem folded_eq_subtracted (x : Feat.Idx → EReal) (p : Proto.Idx → EReal)
    (hx : ∀ i, ∃ r : ℝ, x i = (r : EReal)) (hp : ∀ i, ∃ r : ℝ, p i = (r : EReal)) :
    foldedForm x p = subtractedForm x p := by
  funext i
  obtain ⟨e, he⟩ := eps_real
  choose a ha using fun k : Fin 256 => hx (ix2 (i 0) k)
  choose b hb using fun k : Fin 256 => hp (ix2 (i 1) k)
  have hs : ∀ k, shifted x (i 0) k = ((a k + e : ℝ) : EReal) := fun k => by
    unfold shifted; rw [ha k, he, EReal.coe_add]
  unfold foldedForm subtractedForm featNorm protoNorm
  simp only [hs, hb, Lib.DistanceExpansion.word_neg_two, Lib.DistanceExpansion.word_two]
  rw [show zeroW = (0 : EReal) from Ideal.ofBits_zero_f32, zero_sub,
    Lib.DistanceExpansion.folded_eq_subtracted (fun k => a k + e) b]

end Cert.Distance

end
-- ==== Proof.RefDistance.lean ====
/-
  The reference, read entry by entry, is the subtracted arrangement of the negated distance: its stages are the shift
  of the features, the two rows' squared norms summed from zero and spread over the table, the inner product of a
  shifted feature row with a prototype row (a contraction against the transposed prototypes), twice that product
  subtracted from the sum of the norms, the clamp at zero, the square root and the negation.
-/
import proofs.«157016_j91087666413905_2_alg».proof.Proof.Gen.ReferenceIdeal.Read
import proofs.«157016_j91087666413905_2_alg».proof.Proof.Distance

noncomputable section

open scoped BigOperators

namespace Cert.RefDistance

open Cert.ReferenceIdeal Cert.ReferenceIdeal.Read Idealize.ShloMosaic Idealize.ShloMosaic.ValueIdx Cert.Distance

/-- The reference's last stage is the subtracted arrangement, as functions of the two argument arrays. -/
theorem reference_eq_subtracted (x0 : FVec Ideal S8192x256 .f32) (x1 : FVec Ideal S16384x256 .f32) :
    val_main_v19 (F := Ideal) x0 x1 = subtractedForm x0 x1 := by
  funext i
  -- the rows the stages read: feature row `i 0` and prototype row `i 1`, entry `k`
  have e1 : ∀ k, idx_main_v3 (idx_main_v4 (idx_main_v10 i)) k = ix2 (n0 := 8192) (n1 := 256) (i 0) k := fun k =>
    funext fun a => Fin.ext (by match a with | ⟨0, _⟩ => rfl | ⟨1, _⟩ => rfl)
  have e2 : ∀ k, lidx_main_v8 i k = ix2 (n0 := 8192) (n1 := 256) (i 0) k := fun k =>
    funext fun a => Fin.ext (by match a with | ⟨0, _⟩ => rfl | ⟨1, _⟩ => rfl)
  have e3 : ∀ k, idx_main_v7 (ridx_main_v8 i k) = ix2 (n0 := 16384) (n1 := 256) (i 1) k := fun k =>
    funext fun a => Fin.ext (by match a with | ⟨0, _⟩ => rfl | ⟨1, _⟩ => rfl)
  have e4 : ∀ k, idx_main_v6 (idx_main_v9 (idx_main_v11 i)) k = ix2 (n0 := 16384) (n1 := 256) (i 1) k := fun k =>
    funext fun a => Fin.ext (by match a with | ⟨0, _⟩ => rfl | ⟨1, _⟩ => rfl)
  rw [val_main_v19_apply, val_main_v18_apply, val_main_v17_apply, val_main_v15_apply, val_main_v12_apply,
    val_main_v14_apply, val_main_v10_apply, val_main_v4_apply, val_main_v3_apply, val_main_v11_apply,
    val_main_v9_apply, val_main_v6_apply, val_main_v13_apply, val_main_cst_2_apply, val_main_v8_apply,
    val_main_v16_apply, val_main_cst_3_apply]
  simp only [val_main_v2_apply, val_main_v1_apply, val_main_v0_apply, val_main_cst_apply, val_main_v5_apply,
    val_main_v7_apply, val_main_cst_0_apply, val_main_cst_1_apply, e1, e2, e3, e4,
    Ideal.ofBits_def, Ideal.addf_def, Ideal.subf_def, Ideal.mulf_def, Ideal.maximumf_def,
    Ideal.hostUnary_sqrt_def]
  rfl

end Cert.RefDistance

end
-- ==== Proof.Operands.lean ====
/-
  What the kernel's four operand arrays hold when its grid starts, entry by entry.  The program prepares them before
  the launch: the shifted features (then narrowed, which changes no extended real), the transposed prototypes scaled
  by -2 (then narrowed), the column of the shifted rows' squared norms and the row of the prototypes' squared norms.
  The shift, the two norms and the transpose are computed by the very operations the reference uses for them, so
  each is read at an entry by the reference's own stage lemma.
-/
import proofs.«157016_j91087666413905_2_alg».proof.Proof.Gen.KernelIdeal.Frame
import proofs.«157016_j91087666413905_2_alg».proof.Proof.Gen.ReferenceIdeal.Read
import proofs.«157016_j91087666413905_2_alg».proof.Proof.Distance
import Idealize.ShloMosaic.Lib.StableHlo.Run

noncomputable section

open scoped BigOperators

namespace Cert.Operands

open Cert.KernelIdeal Cert.KernelIdeal.Gen Idealize.ShloMosaic Idealize.ShloMosaic.TcCoe Idealize.SL.Sem
  Idealize.ShloMosaic.StableHlo Idealize.ShloMosaic.ValueIdx Cert.Distance
open Cert.ReferenceIdeal.Read (val_main_v1 val_main_v1_apply val_main_v0_apply val_main_cst_apply val_main_v4
  val_main_v4_apply val_main_v3_apply val_main_v2_apply val_main_cst_0_apply val_main_v9 val_main_v9_apply
  val_main_v6_apply val_main_v5_apply val_main_cst_1_apply val_main_v7 val_main_v7_apply idx_main_v3 idx_main_v4
  idx_main_v6 idx_main_v9 idx_main_v7)

variable (m : (ℓ : Loc nD τ sig) → Buf (Elt Ideal) ℓ) (c : Dev nD)

/-- The first operand, whole: the features with the shift added. -/
theorem features_found : (V m c main_v8 : S8192x256.Idx → EReal)
    = val_main_v1 (F := Ideal) (m ((c : Thread nD τ).loc main_arg0)) := by
  dsimp only [Gen.V, Gen.hostOps0]; after_results; rfl

/-- The second operand, whole: the transposed prototypes, every entry multiplied by the word `-2`. -/
theorem prototypes_found : (V m c main_v12 : S256x16384.Idx → EReal)
    = mulf (broadcastInDim S256x16384 ![] bcast_S_S256x16384 (constant (F := Ideal) S_ .f32 0xC0000000#32))
        (val_main_v7 (F := Ideal) (m ((c : Thread nD τ).loc main_arg1))) := by
  dsimp only [Gen.V, Gen.hostOps0]; after_results; rfl

/-- The third operand, whole: the column of the shifted feature rows' squared norms. -/
theorem featNorms_found : (V m c main_v4 : S8192x1.Idx → EReal)
    = val_main_v4 (F := Ideal) (m ((c : Thread nD τ).loc main_arg0)) := by
  dsimp only [Gen.V, Gen.hostOps0]; after_results; rfl

/-- The fourth operand, whole: the row of the prototype rows' squared norms. -/
theorem protoNorms_found : (V m c main_v7 : S1x16384.Idx → EReal)
    = val_main_v9 (F := Ideal) (m ((c : Thread nD τ).loc main_arg1)) := by
  dsimp only [Gen.V, Gen.hostOps0]; after_results; rfl

/-- Entry `(i, k)` of the first operand is the shifted feature. -/
theorem features_apply (i : Fin 8192) (k : Fin 256) :
    (V m c main_v8 : S8192x256.Idx → EReal) (ix2 i k) = shifted (m ((c : Thread nD τ).loc main_arg0)) i k := by
  rw [features_found, val_main_v1_apply, val_main_v0_apply, val_main_cst_apply]
  rfl

/-- Entry `(k, j)` of the second operand is `-2` times entry `(j, k)` of the prototypes. -/
theorem prototypes_apply (k : Fin 256) (j : Fin 16384) :
    (V m c main_v12 : S256x16384.Idx → EReal) (ix2 k j)
      = Ideal.ofBits .f32 0xC0000000#32 * m ((c : Thread nD τ).loc main_arg1) (ix2 j k) := by
  rw [prototypes_found]
  show _ * val_main_v7 (F := Ideal) (m ((c : Thread nD τ).loc main_arg1)) (ix2 k j) = _
  rw [val_main_v7_apply]
  have e : idx_main_v7 (ix2 (n0 := 256) (n1 := 16384) k j) = ix2 (n0 := 16384) (n1 := 256) j k :=
    funext fun a => Fin.ext (by match a with | ⟨0, _⟩ => rfl | ⟨1, _⟩ => rfl)
  rw [e]
  rfl

/-- Entry `(i, 0)` of the third operand is the squared norm of shifted feature row `i`. -/
theorem featNorms_apply (i : Fin 8192) (u : Fin 1) :
    (V m c main_v4 : S8192x1.Idx → EReal) (ix2 i u) = featNorm (m ((c : Thread nD τ).loc main_arg0)) i := by
  rw [featNorms_found, val_main_v4_apply, val_main_v3_apply]
  have e : ∀ k, idx_main_v3 (idx_main_v4 (ix2 (n0 := 8192) (n1 := 1) i u)) k = ix2 (n0 := 8192) (n1 := 256) i k :=
    fun k => funext fun a => Fin.ext (by match a with | ⟨0, _⟩ => rfl | ⟨1, _⟩ => rfl)
  simp only [val_main_v2_apply, val_main_v1_apply, val_main_v0_apply, val_main_cst_apply, val_main_cst_0_apply, e,
    Ideal.ofBits_def, Ideal.addf_def, Ideal.mulf_def]
  rfl

/-- Entry `(0, j)` of the fourth operand is the squared norm of prototype row `j`. -/
theorem protoNorms_apply (u : Fin 1) (j : Fin 16384) :
    (V m c main_v7 : S1x16384.Idx → EReal) (ix2 u j) = protoNorm (m ((c : Thread nD τ).loc main_arg1)) j := by
  rw [protoNorms_found, val_main_v9_apply, val_main_v6_apply]
  have e : ∀ k, idx_main_v6 (idx_main_v9 (ix2 (n0 := 1) (n1 := 16384) u j)) k = ix2 (n0 := 16384) (n1 := 256) j k :=
    fun k => funext fun a => Fin.ext (by match a with | ⟨0, _⟩ => rfl | ⟨1, _⟩ => rfl)
  simp only [val_main_v5_apply, val_main_cst_1_apply, e, Ideal.ofBits_def, Ideal.mulf_def]
  rfl

end Cert.Operands

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.Payload.lean ====
/-
  The value the kernel body stores, at entry (p, q) of its 2048 × 512 tile, from the four blocks it loads: the inner
  product of row p of the first block with column q of the second (a matrix product accumulated into zero), plus entry
  p of the column block, plus entry q of the row block, clamped at zero, rooted, and subtracted from zero.
-/
import proofs.«157016_j91087666413905_2_alg».proof.Proof.Gen.KernelIdeal.Skeleton
import proofs.«157016_j91087666413905_2_alg».proof.Proof.LibGram
import proofs.«157016_j91087666413905_2_alg».proof.Proof.Distance
import Idealize.ShloMosaic.Lib.Pipeline.Value
import Idealize.ShloMosaic.Lib.ValueIdx
import Idealize.ShloMosaic.PureOps.Ideal.Laws

noncomputable section

open scoped BigOperators

namespace Cert.Payload

open Cert.KernelIdeal Cert.KernelIdeal.Gen Idealize.ShloMosaic Idealize.ShloMosaic.ValueIdx Cert.Distance

/-- The coordinates the tile product's dimension numbers pair with an output entry `j` and a contraction index `c`:
    the left operand's row is `j`'s row and its column is `c`'s coordinate; the right operand's row is `c`'s coordinate
    and its column is `j`'s column. -/
theorem left_row (j : S2048x512.Idx) (c : dot_S2048x256_S256x512_S2048x512_1_0_0_1_n_n.contr.Idx) :
    (dot_S2048x256_S256x512_S2048x512_1_0_0_1_n_n.lhsIdx j c 0).val = (j 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem left_col (j : S2048x512.Idx) (c : dot_S2048x256_S256x512_S2048x512_1_0_0_1_n_n.contr.Idx) :
    (dot_S2048x256_S256x512_S2048x512_1_0_0_1_n_n.lhsIdx j c 1).val = (c ⟨0, by decide⟩).val :=
  dot_S2048x256_S256x512_S2048x512_1_0_0_1_n_n.lhsIdx_val_of_single rfl j c
theorem right_row (j : S2048x512.Idx) (c : dot_S2048x256_S256x512_S2048x512_1_0_0_1_n_n.contr.Idx) :
    (dot_S2048x256_S256x512_S2048x512_1_0_0_1_n_n.rhsIdx j c 0).val = (c ⟨0, by decide⟩).val :=
  dot_S2048x256_S256x512_S2048x512_1_0_0_1_n_n.rhsIdx_val_of_single rfl j c
theorem right_col (j : S2048x512.Idx) (c : dot_S2048x256_S256x512_S2048x512_1_0_0_1_n_n.contr.Idx) :
    (dot_S2048x256_S256x512_S2048x512_1_0_0_1_n_n.rhsIdx j c 1).val = (j 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The tile's matrix product at `(p, q)`: the sum over the contracted coordinate `k` of the left block at `(p, k)`
    times the right block at `(k, q)`. -/
theorem product_apply (A : Vec Ideal S2048x256 .bf16) (B : Vec Ideal S256x512 .bf16) (p : Fin 2048) (q : Fin 512) :
    (matmul (F := Ideal) (φ₁ := .bf16) (φ₂ := .bf16) dot_S2048x256_S256x512_S2048x512_1_0_0_1_n_n none
        (shapeCast S2048x256 A shapeCasts_S2048x256_S2048x256) (shapeCast S256x512 B shapeCasts_S256x512_S256x512)
        (constant S2048x512 .f32 0x00000000#32) (ix2 p q) : EReal)
      = ∑ k : Fin 256, (A (ix2 p k) : EReal) * (B (ix2 k q) : EReal) := by
  rw [shapeCast_self, shapeCast_self]
  refine Lib.Gram.matmul_zero_single_apply dot_S2048x256_S256x512_S2048x512_1_0_0_1_n_n 256 rfl rfl none A B (ix2 p q)
    (fun k => ix2 p k) (fun k => ix2 k q) (fun k => ?_) (fun k => ?_)
  · have hk := contrEquiv1_symm_val dot_S2048x256_S256x512_S2048x512_1_0_0_1_n_n 256 rfl rfl k
    exact funext fun a => Fin.ext (by
      match a with
      | ⟨0, _⟩ => exact left_row _ _
      | ⟨1, _⟩ => exact (left_col _ _).trans hk)
  · have hk := contrEquiv1_symm_val dot_S2048x256_S256x512_S2048x512_1_0_0_1_n_n 256 rfl rfl k
    exact funext fun a => Fin.ext (by
      match a with
      | ⟨0, _⟩ => exact (right_row _ _).trans hk
      | ⟨1, _⟩ => exact right_col _ _)

/-- The column block spread over the tile reads, at `(p, q)`, its entry `p`. -/
theorem column_apply (C : Vec Ideal S2048x1 .f32) (p : Fin 2048) (q : Fin 512) :
    (broadcastTo S2048x512 (shapeCast S2048x1 C shapeCasts_S2048x1_S2048x1) broadcasts_S2048x1_S2048x512 (ix2 p q) : EReal)
      = C (ix2 p 0) := by
  rw [shapeCast_self]
  exact broadcastTo_apply C broadcasts_S2048x1_S2048x512 (ix2 p q) (ix2 p 0) (fun a => match a with
    | ⟨0, _⟩ => by show p.val = if (2048 : Nat) = 1 then 0 else p.val; rw [if_neg (by decide)]
    | ⟨1, _⟩ => by show 0 = if (1 : Nat) = 1 then 0 else q.val; rw [if_pos rfl])

/-- The row block spread over the tile reads, at `(p, q)`, its entry `q`. -/
theorem row_apply (R : Vec Ideal S1x512 .f32) (p : Fin 2048) (q : Fin 512) :
    (broadcastTo S2048x512 (shapeCast S1x512 R shapeCasts_S1x512_S1x512) broadcasts_S1x512_S2048x512 (ix2 p q) : EReal)
      = R (ix2 0 q) := by
  rw [shapeCast_self]
  exact broadcastTo_apply R broadcasts_S1x512_S2048x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The stored value at `(p, q)`, from the four loaded blocks. -/
theorem stored_apply (A : Vec Ideal S2048x256 .bf16) (B : Vec Ideal S256x512 .bf16) (C : Vec Ideal S2048x1 .f32)
    (R : Vec Ideal S1x512 .f32) (p : Fin 2048) (q : Fin 512) :
    (k0_pay1 A B C R (ix2 p q) : EReal)
      = zeroW - Ideal.sqrt (max (((∑ k : Fin 256, (A (ix2 p k) : EReal) * (B (ix2 k q) : EReal)) + (C (ix2 p 0) : EReal))
          + (R (ix2 0 q) : EReal)) zeroW) := by
  rw [← product_apply A B p q, ← column_apply C p q, ← row_apply R p q]
  rfl

/-- When the blocks hold, along row `p` and column `q`, the shifted feature row `i`, the scaled prototype row `j` and
    the two rows' squared norms, the stored value is the folded arrangement's entry `(i, j)`. -/
theorem stored_eq_folded (A : Vec Ideal S2048x256 .bf16) (B : Vec Ideal S256x512 .bf16) (C : Vec Ideal S2048x1 .f32)
    (R : Vec Ideal S1x512 .f32) (x : Feat.Idx → EReal) (pr : Proto.Idx → EReal) (i : Fin 8192) (j : Fin 16384)
    (p : Fin 2048) (q : Fin 512)
    (hA : ∀ k : Fin 256, (A (ix2 p k) : EReal) = shifted x i k)
    (hB : ∀ k : Fin 256, (B (ix2 k q) : EReal) = Ideal.ofBits .f32 0xC0000000#32 * pr (ix2 j k))
    (hC : (C (ix2 p 0) : EReal) = featNorm x i) (hR : (R (ix2 0 q) : EReal) = protoNorm pr j) :
    (k0_pay1 A B C R (ix2 p q) : EReal) = foldedForm x pr (ix2 i j) := by
  rw [stored_apply]
  simp only [hA, hB, hC, hR]
  rfl

end Cert.Payload

end
-- ==== Proof.Tiles.lean ====
/-
  From tiles to the whole table.  The grid has 4 × 32 points; point (a, b) works on rows 2048 a … 2048 a + 2047 of the
  features and columns 512 b … 512 b + 511 of the prototypes, and writes the 2048 × 512 tile of the result at block
  (a, b).  The first and third operands' blocks move with a only, the second and fourth with b only.  So what a point
  writes back is that tile of the folded arrangement of the negated distance; the 128 tiles cover the 8192 × 16384
  table (entry (r, s) lies in the tile of point (r / 2048, s / 512)), and after the run the result array is the folded
  arrangement of the two argument arrays.
-/
import proofs.«157016_j91087666413905_2_alg».proof.Proof.Gen.KernelIdeal.Value
import proofs.«157016_j91087666413905_2_alg».proof.Proof.Operands
import proofs.«157016_j91087666413905_2_alg».proof.Proof.Payload

set_option maxRecDepth 16384

noncomputable section

namespace Cert.Tiles

open Cert.KernelIdeal Cert.KernelIdeal.Gen Idealize.ShloMosaic Idealize.ShloMosaic.TcCoe Idealize.SL.Sem
  Idealize.ShloMosaic.ValueIdx Cert.Distance
open Idealize.ShloMosaic.Pipeline (Dat)

variable (m : (ℓ : Loc nD τ sig) → Buf (Elt Ideal) ℓ) (ρ : Dev nD → PrngReg)

/-- Every access of the body starts at the origin of its block. -/
theorem origin : (![0, 0] : Fin 2 → Nat) = fun _ => 0 := funext fun a => by fin_cases a <;> rfl

/-- The block indices of the five windows at a grid point, decided over the 128 points: the first and third operands
    follow the result's row block and stay at column block 0, the second and fourth follow its column block and stay
    at row block 0; the result's block indices stay below 4 and 32. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 31 :=
  (by decide +kernel : ∀ t : Fin grid0.N, _)

/-- Every block of the result is some point's. -/
theorem block_onto : ∀ (a : Fin 4) (b : Fin 32), ∃ t : Fin cfg0.N, win0_4.index t = ![a.val, b.val] :=
  (by decide +kernel : ∀ (a : Fin 4) (b : Fin 32), ∃ t : Fin grid0.N, win0_4.index t = ![a.val, b.val])

/-- What point `t` writes back is its tile of the folded arrangement of the two argument arrays. -/
theorem written_eq (c : Dev nD) (t : Fin cfg0.N) :
    (dats m 0 c).flushed 4 t = ((cfg0.win 4).blk t).view.read (Elt Ideal)
      (foldedForm (m ((c : Thread nD τ).loc main_arg0)) (m ((c : Thread nD τ).loc main_arg1))) := by
  rw [Value.flushed4]
  unfold out0_4
  rw [View.canon_unit_zero origin]
  simp only [View.ld_unit_zero (S := S2048x256) origin, View.ld_unit_zero (S := S256x512) origin,
    View.ld_unit_zero (S := S2048x1) origin, View.ld_unit_zero (S := S1x512) origin]
  obtain ⟨e0, e1, e2, e3, e4, e5, e6, e7, b0, b1⟩ := block_indices t
  funext y
  obtain ⟨p, q, rfl⟩ : ∃ (p : Fin 2048) (q : Fin 512), y = ix2 p q := ⟨y 0, y 1, eq_ix2 y⟩
  show (k0_pay1 (iblk m c 0 t) (iblk m c 1 t) (iblk m c 2 t) (iblk m c 3 t) (ix2 p q) : EReal)
    = foldedForm _ _ (((cfg0.win 4).blk t).view.emb (ix2 p q))
  rw [eq_ix2 (((cfg0.win 4).blk t).view.emb (ix2 p q))]
  refine Payload.stored_eq_folded _ _ _ _ _ _ _ _ p q (fun k => ?_) (fun k => ?_) ?_ ?_
  · show (V m c main_v8 : S8192x256.Idx → EReal) (((cfg0.win 0).blk t).view.emb (ix2 p k)) = _
    have hi : ((cfg0.win 0).blk t).view.emb (ix2 p k)
        = ix2 (n0 := 8192) (n1 := 256) ((((cfg0.win 4).blk t).view.emb (ix2 p q)) 0) k := by
      funext a; apply Fin.ext
      match a with
      | ⟨0, _⟩ =>
        show win0_0.index t (0 : Fin 2) * 2048 + 1 * p.val = win0_4.index t (0 : Fin 2) * 2048 + 1 * p.val
        omega
      | ⟨1, _⟩ => show win0_0.index t (1 : Fin 2) * 256 + 1 * k.val = k.val; omega
    rw [hi]
    exact Operands.features_apply m c _ k
  · show (V m c main_v12 : S256x16384.Idx → EReal) (((cfg0.win 1).blk t).view.emb (ix2 k q)) = _
    have hi : ((cfg0.win 1).blk t).view.emb (ix2 k q)
        = ix2 (n0 := 256) (n1 := 16384) k ((((cfg0.win 4).blk t).view.emb (ix2 p q)) 1) := by
      funext a; apply Fin.ext
      match a with
      | ⟨0, _⟩ => show win0_1.index t (0 : Fin 2) * 256 + 1 * k.val = k.val; omega
      | ⟨1, _⟩ =>
        show win0_1.index t (1 : Fin 2) * 512 + 1 * q.val = win0_4.index t (1 : Fin 2) * 512 + 1 * q.val
        omega
    rw [hi]
    exact Operands.prototypes_apply m c k _
  · show (V m c main_v4 : S8192x1.Idx → EReal) (((cfg0.win 2).blk t).view.emb (ix2 p 0)) = _
    have hi : ((cfg0.win 2).blk t).view.emb (ix2 p 0)
        = ix2 (n0 := 8192) (n1 := 1) ((((cfg0.win 4).blk t).view.emb (ix2 p q)) 0) 0 := by
      funext a; apply Fin.ext
      match a with
      | ⟨0, _⟩ =>
        show win0_2.index t (0 : Fin 2) * 2048 + 1 * p.val = win0_4.index t (0 : Fin 2) * 2048 + 1 * p.val
        omega
      | ⟨1, _⟩ => show win0_2.index t (1 : Fin 2) * 1 + 1 * 0 = 0; omega
    rw [hi]
    exact Operands.featNorms_apply m c _ 0
  · show (V m c main_v7 : S1x16384.Idx → EReal) (((cfg0.win 3).blk t).view.emb (ix2 0 q)) = _
    have hi : ((cfg0.win 3).blk t).view.emb (ix2 0 q)
        = ix2 (n0 := 1) (n1 := 16384) 0 ((((cfg0.win 4).blk t).view.emb (ix2 p q)) 1) := by
      funext a; apply Fin.ext
      match a with
      | ⟨0, _⟩ => show win0_3.index t (0 : Fin 2) * 1 + 1 * 0 = 0; omega
      | ⟨1, _⟩ =>
        show win0_3.index t (1 : Fin 2) * 512 + 1 * q.val = win0_4.index t (1 : Fin 2) * 512 + 1 * q.val
        omega
    rw [hi]
    exact Operands.protoNorms_apply m c 0 _

/-- An entry of the table lies in point `t`'s tile iff each coordinate lies in the tile's range on its axis. -/
theorem mem_tile (t : Fin cfg0.N) (i : S8192x16384.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v13).slice (win0_4.rect t)).set ↔ _
  rw [View.set_slice_whole, Rect.mem_set_unit]
  exact Iff.rfl

/-- The tiles cover the table: entry `(r, s)` lies in the tile of the point whose block is `(r / 2048, s / 512)`. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  obtain ⟨t, ht⟩ := block_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_tile]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-- After the run the result array is the folded arrangement of the two argument arrays. -/
theorem table_eq (c : Dev nD) : (dats m 0 c).arrAt 4 cfg0.N
    = foldedForm (m ((c : Thread nD τ).loc main_arg0)) (m ((c : Thread nD τ).loc main_arg1)) :=
  (dats m 0 c).arrAt_eq_of_cover 4 _ (fun t _ => written_eq m c t) covered

/-- The kernel's run, read: the result array ends at the folded arrangement, the arguments unchanged. -/
theorem run : θ_run defs (onTc (τ := τ) (main (F := Ideal))) ⟨m, fun _ => 0, ρ⟩ fun r => ∀ c : Dev nD,
      r.2.mem ((c : Thread nD τ).loc main_v13)
        = foldedForm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (table_eq m c), (h c).2⟩) (Value.run_blocks m ρ)

end Cert.Tiles

end
-- ==== Proof.FiniteEntries.lean ====
/-
  The precondition read back: when the printed finiteness test of the two argument arrays comes out all ones, every
  entry of both arrays is a real number.

  The test compares the absolute value of every entry with +infinity, takes the conjunction over each array, and joins
  the two.  An extended real whose absolute value max(x, -x) is strictly below +infinity is neither infinity.
-/
import proofs.«157016_j91087666413905_2_alg».proof.Proof.Gen.Pre_finite_inputs
import Idealize.ShloMosaic.Lib.ReduceAll
import Idealize.ShloMosaic.Lib.ValueIdx
import Idealize.ShloMosaic.PureOps.Ideal.Laws

noncomputable section

namespace Cert.FiniteEntries

open Idealize.ShloMosaic

instance : Subsingleton Cert.Pre_finite_inputs.S_.Idx := ⟨fun a b => funext fun d => d.elim0⟩

/-- The float word `0x7F800000` read exactly is +infinity. -/
theorem word_top : Ideal.ofBits .f32 0x7F800000#32 = (⊤ : EReal) := by
  simp [Ideal.ofBits, Ideal.ieee]

/-- An extended real whose absolute value compares strictly below +infinity is a real number. -/
theorem real_of_abs_lt_top (x : EReal)
    (h : Ideal.cmp .olt (max x (-x)) (Ideal.ofBits .f32 0x7F800000#32) = 1#1) : ∃ r : ℝ, x = (r : EReal) := by
  rw [word_top] at h
  induction x using EReal.rec with
  | bot => simp [Ideal.cmp] at h
  | coe r => exact ⟨r, rfl⟩
  | top => simp [Ideal.cmp] at h

/-- The printed precondition, all ones, makes every entry of both argument arrays real. -/
theorem entries_real (x0 : FVec Ideal Cert.Pre_finite_inputs.S8192x256 .f32)
    (x1 : FVec Ideal Cert.Pre_finite_inputs.S16384x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_abs_lt_top _ (Host.reduce_andi_all _ _ _ _ _ ha i),
    fun i => real_of_abs_lt_top _ (Host.reduce_andi_all _ _ _ _ _ hb i)⟩

end Cert.FiniteEntries

end
-- ==== Proof.lean ====
/-
  The kernel and its reference compute one table: entry (i, j) is minus the Euclidean distance between feature row i,
  every entry shifted by a small constant, and prototype row j.

  Both programs expand the squared distance as  |s_i|^2 + |p_j|^2 - 2 <s_i, p_j>  (s_i the shifted feature row), clamp it
  at zero, take the square root and negate.  The reference subtracts twice the plain inner product from the sum of the
  two squared norms.  The kernel prepares, before its grid starts, the shifted features, the prototypes transposed and
  scaled by -2, and the two vectors of squared norms; each of its 4 x 32 grid points then takes one matrix product of a
  2048-row block of features with a 512-column block of scaled prototypes, adds the norms, clamps, roots, and writes
  0 - root to its tile.  Narrowing the matrix product's operands to a shorter float format changes no extended real.

  The parts:
  * Distance — the two arrangements as functions of the argument arrays, and their equality for arrays of real entries
    (the expansion law of LibDistanceExpansion: a factor moves out of a finite sum of real numbers);
  * RefDistance — the reference's stages, read at an entry, are the subtracted arrangement;
  * Operands, Payload, Tiles — what the kernel's prepared operands hold, what its body stores at an entry of a tile, and
    that the 128 tiles cover the table: the kernel's result array is the folded arrangement;
  * FiniteEntries — the precondition makes every argument entry a real number, which the expansion law needs: over the
    extended reals a factor does not move out of a sum that meets both infinities.
  The three programs' runs (termination, no fault, arguments unchanged) are the generated frames and the generated run of
  the reference; the idealization changes no operation, so nothing is owed for it.
-/
import proofs.«157016_j91087666413905_2_alg».proof.Defs
import proofs.«157016_j91087666413905_2_alg».proof.Proof.Gen.Kernel
import proofs.«157016_j91087666413905_2_alg».proof.Proof.Gen.Kernel.Skeleton
import proofs.«157016_j91087666413905_2_alg».proof.Proof.Gen.Kernel.Launch
import proofs.«157016_j91087666413905_2_alg».proof.Proof.Gen.Kernel.Points
import proofs.«157016_j91087666413905_2_alg».proof.Proof.Gen.Kernel.Frame
import proofs.«157016_j91087666413905_2_alg».proof.Proof.Gen.KernelIdeal
import proofs.«157016_j91087666413905_2_alg».proof.Proof.Gen.KernelIdeal.Skeleton
import proofs.«157016_j91087666413905_2_alg».proof.Proof.Gen.KernelIdeal.Launch
import proofs.«157016_j91087666413905_2_alg».proof.Proof.Gen.KernelIdeal.Points
import proofs.«157016_j91087666413905_2_alg».proof.Proof.Gen.KernelIdeal.Frame
import proofs.«157016_j91087666413905_2_alg».proof.Proof.Gen.ReferenceIdeal
import proofs.«157016_j91087666413905_2_alg».proof.Proof.Gen.KernelIdeal.Value
import proofs.«157016_j91087666413905_2_alg».proof.Proof.Gen.ReferenceIdeal.Run
import proofs.«157016_j91087666413905_2_alg».proof.Proof.Gen.ReferenceIdeal.Read
import proofs.«157016_j91087666413905_2_alg».proof.Proof.Gen.Pre_finite_inputs
import proofs.«157016_j91087666413905_2_alg».proof.Proof.Distance
import proofs.«157016_j91087666413905_2_alg».proof.Proof.RefDistance
import proofs.«157016_j91087666413905_2_alg».proof.Proof.Tiles
import proofs.«157016_j91087666413905_2_alg».proof.Proof.FiniteEntries
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories agreeing on the two argument arrays, both programs end with the same table: the kernel's is the folded
    arrangement of the negated distance, the reference's the subtracted one, and for the real entries the precondition
    grants the two are equal. -/
theorem algebraic : Cert.algebraic_KernelIdeal_ReferenceIdeal := by
  intro m ρ m' ρ' hpre hagree
  refine ⟨fun c => Cert.Distance.foldedForm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefDistance.reference_eq_subtracted, (hagree c).1, (hagree c).2]
  obtain ⟨hx, hp⟩ := Cert.FiniteEntries.entries_real _ _ (hpre c)
  exact (Cert.Distance.folded_eq_subtracted _ _ hx hp).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
